-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512 .f32) (main_arg7 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S1024x512 .f32) (main_arg3 : FVec F S1024x512 .f32) (main_arg4 : FVec F S1024x512 .f32) (main_arg5 : FVec F S512 .f32) (main_arg6 : FVec F S512 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_v13 main_v16
-- ==== Kernel.lean ====
abbrev S16384x512 : Shape := ⟨2, ![16384, 512]⟩
abbrev S1024x512 : Shape := ⟨2, ![1024, 512]⟩
abbrev S512 : Shape := ⟨1, ![512]⟩
abbrev S512x512 : Shape := ⟨2, ![512, 512]⟩
abbrev S512x1536 : Shape := ⟨2, ![512, 1536]⟩
abbrev S512x1024 : Shape := ⟨2, ![512, 1024]⟩
abbrev S1024x1536 : Shape := ⟨2, ![1024, 1536]⟩
abbrev S1024x1024 : Shape := ⟨2, ![1024, 1024]⟩
abbrev S1x512 : Shape := ⟨2, ![1, 512]⟩

abbrev nBuf : Space → Nat
  | .hbm => 20
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x1536, .f32⟩
  | .hbm, ⟨15, _⟩ => ⟨S512x1536, .bf16⟩
  | .hbm, ⟨16, _⟩ => ⟨S512x1024, .f32⟩
  | .hbm, ⟨17, _⟩ => ⟨S512x1024, .bf16⟩
  | .hbm, ⟨18, _⟩ => ⟨S512x512, .bf16⟩
  | .hbm, ⟨19, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1536, .bf16⟩
  | .local _ .vmem, ⟨5, _⟩ => ⟨S512x1024, .bf16⟩
  | .local _ .vmem, ⟨6, _⟩ => ⟨S512x512, .bf16⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S1024x512, .f32⟩
  | .local _ .vmem, ⟨11, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x512_S512x512_0_0 : S1024x512.Slices ![0, 0] S512x512
  slices_S1024x512_S512x512_512_0 : S1024x512.Slices ![512, 0] S512x512
  concatenates_S512x512_S512x512_S512x512_S512x1536_d1 : Shape.Concatenates [S512x512, S512x512, S512x512] S512x1536 1
  bitsLt_bf16_f32 : FTy.bits .bf16 < FTy.bits .f32
  concatenates_S512x512_S512x512_S512x1024_d1 : Shape.Concatenates [S512x512, S512x512] S512x1024 1
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1024x1024_o0_0_S1024x512 : S1024x1024.Slices ![0, 0] S1024x512
  slices_S1024x1024_o0_512_S1024x512 : S1024x1024.Slices ![0, 512] S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x1536_S1024x1536_1_0_0_1_n_n_wf : DotDims.WF S1024x512 S512x1536 S1024x1536 [1] [0] [0] [1] [] []
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S16384x1024 : Shape := ⟨2, ![16384, 1024]⟩
abbrev S1x512 : Shape := ⟨2, ![1, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S16384x1024, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KernelRun.lean ====
/-
  The launch of the recurrent cell's one kernel, run to the end, for `Kernel` read at any float instance.

  Before the launch the host cuts each of the three [1024, 512] gate matrices into its upper and lower
  [512, 512] halves, lays the three upper halves side by side ([512, 1536]), the update and reset lower halves side by
  side ([512, 1024]), and keeps the candidate's lower half; `V` names the buffers' contents after those lines, and none
  of them writes an argument (`V_main_argK`).
  The grid has 16 points; at point `t` the body is handed rows 1024·t … 1024·t + 1023 of the inputs and of the previous
  state, the three rearranged matrices and the three bias vectors whole, and it stores one [1024, 512] block: the
  body's one value `k0_pay1` of what it loaded (`outBlock`). `run_main` is the whole run — every execution ends, the
  result array holds, block by block, what the points stored, every other buffer is as the launch found it — and
  `frame` reads off it that the eight arguments end unchanged.
-/
import proofs.«141747_j50165218017581_2_alg».proof.Proof.Gen.Kernel.Launch
import proofs.«141747_j50165218017581_2_alg».proof.Proof.Gen.Kernel.Skeleton
import proofs.«141747_j50165218017581_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the kernel is launched: after the eleven host lines that cut and rearrange the gate matrices. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is those host lines and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-! ## The blocks the body is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- Each input's staging buffer holds its block at every point, whether the point fetched it or an earlier one did
   (the matrices and the biases are fetched once, their block index never moving). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began, off any run of the launch -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

/-! ## What the body reads and writes -/

abbrev rRows : Rect S1024x512 := Rect.unit (s := S1024x512) ![0, 0] S1024x512.size inb_S1024x512_S1024x512_0_0
abbrev rWide3 : Rect S512x1536 := Rect.unit (s := S512x1536) ![0, 0] S512x1536.size inb_S512x1536_S512x1536_0_0
abbrev rWide2 : Rect S512x1024 := Rect.unit (s := S512x1024) ![0, 0] S512x1024.size inb_S512x1024_S512x1024_0_0
abbrev rSquare : Rect S512x512 := Rect.unit (s := S512x512) ![0, 0] S512x512.size inb_S512x512_S512x512_0_0
abbrev rBias : Rect S512 := Rect.unit (s := S512) ![0] S512.size inb_S512_S512_0

/-- The output block after the body, from the eight input blocks: the one store of the body's value. -/
def outBlock (x0 : Vec F S1024x512 .f32) (x1 : Vec F S1024x512 .f32) (x2 : Vec F S512x1536 .bf16) (x3 : Vec F S512x1024 .bf16) (x4 : Vec F S512x512 .bf16) (x5 : Vec F S512 .f32) (x6 : Vec F S512 .f32) (x7 : Vec F S512 .f32) : Vec F S1024x512 .f32 :=
  View.canon [⟨rRows, k0_pay1 (View.ld x0 rRows) (View.ld x1 rRows) (View.ld x2 rWide3) (View.ld x3 rWide2) (View.ld x5 rBias) (View.ld x6 rBias) (View.ld x4 rSquare) (View.ld x7 rBias)⟩]

/-- That store covers the whole block. -/
theorem outCover (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The body's triple -/

set_option maxHeartbeats 1000000 in
/-- The body on whole staging buffers, the inputs' at contents `xW` and the output's at anything, runs to the end,
    leaves the inputs' as they were and the output's at `outBlock` of them. -/
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S512x1536 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1024x512 .f32) (harg9 : arg9.IsWhole)
    (x0 : Vec F S1024x512 .f32) (x1 : Vec F S1024x512 .f32) (x2 : Vec F S512x1536 .bf16) (x3 : Vec F S512x1024 .bf16) (x4 : Vec F S512x512 .bf16) (x5 : Vec F S512 .f32) (x6 : Vec F S512 .f32) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The launch's proof data -/

/-- After the body at point `t` each input's buffer holds its block and the output's holds `outBlock` of the input
    blocks; the arrays are the launch's; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, and at the end every array of the launch holds what the proof
    data says — the result array the points' blocks — and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eight arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.CellRun

end
-- ==== Proof.KernelIdealRun.lean ====
/-
  The launch of the recurrent cell's one kernel, run to the end, for `KernelIdeal` read at any float instance.

  Before the launch the host cuts each of the three [1024, 512] gate matrices into its upper and lower
  [512, 512] halves, lays the three upper halves side by side ([512, 1536]), the update and reset lower halves side by
  side ([512, 1024]), and keeps the candidate's lower half; `V` names the buffers' contents after those lines, and none
  of them writes an argument (`V_main_argK`).
  The grid has 16 points; at point `t` the body is handed rows 1024·t … 1024·t + 1023 of the inputs and of the previous
  state, the three rearranged matrices and the three bias vectors whole, and it stores one [1024, 512] block: the
  body's one value `k0_pay1` of what it loaded (`outBlock`). `run_main` is the whole run — every execution ends, the
  result array holds, block by block, what the points stored, every other buffer is as the launch found it — and
  `frame` reads off it that the eight arguments end unchanged.
-/
import proofs.«141747_j50165218017581_2_alg».proof.Proof.Gen.KernelIdeal.Launch
import proofs.«141747_j50165218017581_2_alg».proof.Proof.Gen.KernelIdeal.Skeleton
import proofs.«141747_j50165218017581_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the kernel is launched: after the eleven host lines that cut and rearrange the gate matrices. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is those host lines and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-! ## The blocks the body is handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- Each input's staging buffer holds its block at every point, whether the point fetched it or an earlier one did
   (the matrices and the biases are fetched once, their block index never moving). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end as they began, off any run of the launch -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

/-! ## What the body reads and writes -/

abbrev rRows : Rect S1024x512 := Rect.unit (s := S1024x512) ![0, 0] S1024x512.size inb_S1024x512_S1024x512_0_0
abbrev rWide3 : Rect S512x1536 := Rect.unit (s := S512x1536) ![0, 0] S512x1536.size inb_S512x1536_S512x1536_0_0
abbrev rWide2 : Rect S512x1024 := Rect.unit (s := S512x1024) ![0, 0] S512x1024.size inb_S512x1024_S512x1024_0_0
abbrev rSquare : Rect S512x512 := Rect.unit (s := S512x512) ![0, 0] S512x512.size inb_S512x512_S512x512_0_0
abbrev rBias : Rect S512 := Rect.unit (s := S512) ![0] S512.size inb_S512_S512_0

/-- The output block after the body, from the eight input blocks: the one store of the body's value. -/
def outBlock (x0 : Vec F S1024x512 .f32) (x1 : Vec F S1024x512 .f32) (x2 : Vec F S512x1536 .bf16) (x3 : Vec F S512x1024 .bf16) (x4 : Vec F S512x512 .bf16) (x5 : Vec F S512 .f32) (x6 : Vec F S512 .f32) (x7 : Vec F S512 .f32) : Vec F S1024x512 .f32 :=
  View.canon [⟨rRows, k0_pay1 (View.ld x0 rRows) (View.ld x1 rRows) (View.ld x2 rWide3) (View.ld x3 rWide2) (View.ld x5 rBias) (View.ld x6 rBias) (View.ld x4 rSquare) (View.ld x7 rBias)⟩]

/-- That store covers the whole block. -/
theorem outCover (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The body's triple -/

set_option maxHeartbeats 1000000 in
/-- The body on whole staging buffers, the inputs' at contents `xW` and the output's at anything, runs to the end,
    leaves the inputs' as they were and the output's at `outBlock` of them. -/
theorem sound_kernel (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S512x1536 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1024x512 .f32) (harg9 : arg9.IsWhole)
    (x0 : Vec F S1024x512 .f32) (x1 : Vec F S1024x512 .f32) (x2 : Vec F S512x1536 .bf16) (x3 : Vec F S512x1024 .bf16) (x4 : Vec F S512x512 .bf16) (x5 : Vec F S512 .f32) (x6 : Vec F S512 .f32) (x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The launch's proof data -/

/-- After the body at point `t` each input's buffer holds its block and the output's holds `outBlock` of the input
    blocks; the arrays are the launch's; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, and at the end every array of the launch holds what the proof
    data says — the result array the points' blocks — and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eight arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.CellRun

end
-- ==== Proof.CellSpec.lean ====
/-
  One step of a gated recurrent cell, row by row, over the extended reals, and the two ways of writing it.

  A row `x` of the input and the same row `h` of the previous state (512 entries each) meet three gates. Each gate has a
  [1024, 512] matrix, whose upper 512 rows multiply `x` and whose lower 512 rows multiply `h` (or, for the candidate,
  `r ⊙ h`), and a bias:
      z = σ(x·Uz + h·Wz + bz),   r = σ(x·Ur + h·Wr + br),   c = tanh(x·Uc + (r ⊙ h)·Wc + bc),
  and the new state is  h + z ⊙ (c − h)  (`cellRow`).
  The other writing (`cellRowJoined`) lays `x` and `h` end to end, multiplies the joined row of 1024 entries by the whole
  matrix, writes σ(a) as 1 / (1 + e^(−a)), and blends as  (1 − z) ⊙ h + z ⊙ c.
  They agree (`cellRowJoined_eq`): a sum over 1024 terms is the sum over its first 512 plus the sum over its last 512 in
  any commutative monoid, the extended reals included; σ and tanh take every extended real to a real number
  (σ(−∞) = 0, σ(+∞) = 1, tanh(±∞) = ±1), so z and c are real whatever the products were; and for real z, c, h the two
  blends are one polynomial identity. Only the entry of `h` being read must be finite: on the extended reals
  (1 − z)·h + z·c and h + z·(c − h) differ at h = ±∞.
-/
import Idealize.ShloMosaic.PureOps.Ideal
import Idealize.ShloMosaic.Lib.ValueIdx
import Mathlib.Algebra.BigOperators.Fin

noncomputable section

open scoped BigOperators

namespace Cert.Cell

open Idealize.ShloMosaic

/-- Row `k` of the upper half of a 1024-row matrix. -/
abbrev lo (k : Fin 512) : Fin 1024 := ⟨k.val, by omega⟩
/-- Row `k` of the lower half. -/
abbrev hi (k : Fin 512) : Fin 1024 := ⟨512 + k.val, by omega⟩

/-- A sum over 1024 terms, split at the middle. -/
theorem sum_halves (f : Fin 1024 → EReal) :
    ∑ k : Fin 1024, f k = ∑ k : Fin 512, f (lo k) + ∑ k : Fin 512, f (hi k) :=
  Fin.sum_univ_add (a := 512) (b := 512) f

/-- A gate's argument at column `u`: `x·U + h·W + b`. -/
def gate (x h : Fin 512 → EReal) (U W : Fin 512 → Fin 512 → EReal) (b : Fin 512 → EReal) (u : Fin 512) : EReal :=
  (∑ k, x k * U k u + ∑ k, h k * W k u) + b u

/-- The new state at column `u`: `h + z·(c − h)`. -/
def cellRow (x h : Fin 512 → EReal) (Uz Ur Uc Wz Wr Wc : Fin 512 → Fin 512 → EReal) (bz br bc : Fin 512 → EReal)
    (u : Fin 512) : EReal :=
  h u + Ideal.logistic (gate x h Uz Wz bz u)
    * (Ideal.tanh (gate x (fun k => Ideal.logistic (gate x h Ur Wr br k) * h k) Uc Wc bc u) - h u)

/-- Two rows of 512 laid end to end. -/
def join (x h : Fin 512 → EReal) (k : Fin 1024) : EReal :=
  if hk : k.val < 512 then x ⟨k.val, hk⟩ else h ⟨k.val - 512, by omega⟩

theorem join_lo (x h : Fin 512 → EReal) (k : Fin 512) : join x h (lo k) = x k := by
  unfold join; rw [dif_pos (show (lo k).val < 512 from k.isLt)]

theorem join_hi (x h : Fin 512 → EReal) (k : Fin 512) : join x h (hi k) = h k := by
  unfold join
  rw [dif_neg (show ¬ (hi k).val < 512 by show ¬ 512 + k.val < 512; omega)]
  exact congrArg h (Fin.ext (by show 512 + k.val - 512 = k.val; omega))

/-- A gate's argument with the rows joined and the matrix whole. -/
def gateJoined (x h : Fin 512 → EReal) (K : Fin 1024 → Fin 512 → EReal) (b : Fin 512 → EReal) (u : Fin 512) : EReal :=
  (∑ k : Fin 1024, join x h k * K k u) + b u

theorem gateJoined_eq (x h : Fin 512 → EReal) (K : Fin 1024 → Fin 512 → EReal) (b : Fin 512 → EReal) (u : Fin 512) :
    gateJoined x h K b u = gate x h (fun k u => K (lo k) u) (fun k u => K (hi k) u) b u := by
  unfold gateJoined gate
  rw [sum_halves]
  simp only [join_lo, join_hi]

/-- The new state with σ spelt as a quotient and the blend as `(1 − z)·h + z·c`. -/
def cellRowJoined (x h : Fin 512 → EReal) (Kz Kr Kc : Fin 1024 → Fin 512 → EReal) (bz br bc : Fin 512 → EReal)
    (u : Fin 512) : EReal :=
  (1 - Ideal.div 1 (1 + Ideal.exp (-(gateJoined x h Kz bz u)))) * h u
    + Ideal.div 1 (1 + Ideal.exp (-(gateJoined x h Kz bz u)))
      * Ideal.tanh (gateJoined x (fun k => Ideal.div 1 (1 + Ideal.exp (-(gateJoined x h Kr br k))) * h k) Kc bc u)

/-- σ of any extended real is a real number. -/
theorem logistic_real (a : EReal) : ∃ r : ℝ, Ideal.logistic a = (r : EReal) := by
  induction a using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- tanh of any extended real is a real number. -/
theorem tanh_real (a : EReal) : ∃ r : ℝ, Ideal.tanh a = (r : EReal) := by
  induction a using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- For real numbers the two blends are one. -/
theorem blend (z c h : ℝ) :
    (1 - (z : EReal)) * (h : EReal) + (z : EReal) * (c : EReal) = (h : EReal) + (z : EReal) * ((c : EReal) - (h : EReal)) := by
  exact_mod_cast (by ring : (1 - z) * h + z * c = h + z * (c - h))

/-- The two writings of the cell agree at a column where the previous state is finite. -/
theorem cellRowJoined_eq (x h : Fin 512 → EReal) (Kz Kr Kc : Fin 1024 → Fin 512 → EReal) (bz br bc : Fin 512 → EReal)
    (u : Fin 512) (hu : ∃ r : ℝ, h u = (r : EReal)) :
    cellRowJoined x h Kz Kr Kc bz br bc u
      = cellRow x h (fun k u => Kz (lo k) u) (fun k u => Kr (lo k) u) (fun k u => Kc (lo k) u)
          (fun k u => Kz (hi k) u) (fun k u => Kr (hi k) u) (fun k u => Kc (hi k) u) bz br bc u := by
  unfold cellRowJoined cellRow
  simp only [gateJoined_eq]
  show (1 - Ideal.logistic _) * h u + Ideal.logistic _ * Ideal.tanh _ = _
  obtain ⟨hr, hhr⟩ := hu
  obtain ⟨z, hz⟩ := logistic_real (gate x h (fun k u => Kz (lo k) u) (fun k u => Kz (hi k) u) bz u)
  obtain ⟨c, hc⟩ := tanh_real (gate x (fun k => Ideal.logistic (gate x h (fun k u => Kr (lo k) u) (fun k u => Kr (hi k) u) br k) * h k)
    (fun k u => Kc (lo k) u) (fun k u => Kc (hi k) u) bc u)
  show (1 - Ideal.logistic (gate x h (fun k u => Kz (lo k) u) (fun k u => Kz (hi k) u) bz u)) * h u
      + Ideal.logistic (gate x h (fun k u => Kz (lo k) u) (fun k u => Kz (hi k) u) bz u)
        * Ideal.tanh (gate x (fun k => Ideal.logistic (gate x h (fun k u => Kr (lo k) u) (fun k u => Kr (hi k) u) br k) * h k)
            (fun k u => Kc (lo k) u) (fun k u => Kc (hi k) u) bc u) = _
  rw [hz, hc, hhr]
  exact blend z c hr

/-! ## The cell over whole arrays -/

open Idealize.ShloMosaic.ValueIdx

/-- The new state at row `b`, column `u`, from the eight argument arrays: the input and the previous state
    ([16384, 512]), the three gate matrices ([1024, 512]: update, reset, candidate) and the three biases ([512]). -/
def cellAt (X H : (⟨2, ![16384, 512]⟩ : Shape).Idx → EReal) (Kz Kr Kc : (⟨2, ![1024, 512]⟩ : Shape).Idx → EReal)
    (bz br bc : (⟨1, ![512]⟩ : Shape).Idx → EReal) (b : Fin 16384) (u : Fin 512) : EReal :=
  cellRow (fun k => X (ix2 b k)) (fun k => H (ix2 b k))
    (fun k u => Kz (ix2 (lo k) u)) (fun k u => Kr (ix2 (lo k) u)) (fun k u => Kc (ix2 (lo k) u))
    (fun k u => Kz (ix2 (hi k) u)) (fun k u => Kr (ix2 (hi k) u)) (fun k u => Kc (ix2 (hi k) u))
    (fun u => bz (ix1 u)) (fun u => br (ix1 u)) (fun u => bc (ix1 u)) u

/-- The whole new state. -/
def cellArr (X H : (⟨2, ![16384, 512]⟩ : Shape).Idx → EReal) (Kz Kr Kc : (⟨2, ![1024, 512]⟩ : Shape).Idx → EReal)
    (bz br bc : (⟨1, ![512]⟩ : Shape).Idx → EReal) : (⟨2, ![16384, 512]⟩ : Shape).Idx → EReal :=
  fun i => cellAt X H Kz Kr Kc bz br bc ⟨(i 0).val, idx2_lt0 i⟩ ⟨(i 1).val, idx2_lt1 i⟩

theorem cellArr_ix2 (X H : (⟨2, ![16384, 512]⟩ : Shape).Idx → EReal) (Kz Kr Kc : (⟨2, ![1024, 512]⟩ : Shape).Idx → EReal)
    (bz br bc : (⟨1, ![512]⟩ : Shape).Idx → EReal) (b : Fin 16384) (u : Fin 512) :
    cellArr X H Kz Kr Kc bz br bc (ix2 b u) = cellAt X H Kz Kr Kc bz br bc b u := rfl

/-- The float word of `1.0` denotes the number one. -/
theorem ofBits_one : Ideal.ofBits .f32 0x3F800000#32 = 1 := by
  simp [Ideal.ofBits, Ideal.ieee, -EReal.coe_mul]; norm_num

end Cert.Cell

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.CellPayload.lean ====
/-
  The kernel body's one value, read at an entry of its [1024, 512] block, is the cell of `CellSpec` on that row.

  The body multiplies its 1024 rows of `x` by the three upper half-matrices laid side by side (one [512, 1536]
  product: columns 0…511 belong to the update gate, 512…1023 to the reset gate, 1024…1535 to the candidate) and its 1024
  rows of `h` by the update and reset lower half-matrices laid side by side (one [512, 1024] product), cuts the
  products back into their [1024, 512] column stretches, adds the biases (a [512] vector read as one row and repeated
  down the rows), and multiplies `r ⊙ h` by the candidate's lower half-matrix. At the exact extended reals a
  product into a zero accumulator read at (p, q) is Σ_k A(p, k)·B(k, q), a change of float format is the identity,
  and a column stretch of a product read at (p, q) is the product read at (p, offset + q): so each gate's argument at
  (p, q) is `Cell.gate` of row p (`updateArg_apply`, `resetArg_apply`, `candidateArg_apply`), and the whole value is
  `Cell.cellRow` of row p at column q (`pay_apply`).
-/
import proofs.«141747_j50165218017581_2_alg».proof.Proof.Gen.KernelIdeal.Skeleton
import proofs.«141747_j50165218017581_2_alg».proof.Proof.CellSpec
import proofs.«141747_j50165218017581_2_alg».proof.Proof.LibPlainMatmul
import Idealize.ShloMosaic.Lib.ValueIdx
import Idealize.ShloMosaic.Lib.ValueLayout
import Idealize.ShloMosaic.Lib.Pipeline.Value

noncomputable section

open scoped BigOperators

namespace Cert.KernelIdeal.CellPayload

open Cert.KernelIdeal Cert.KernelIdeal.Gen Idealize.ShloMosaic Idealize.ShloMosaic.ValueIdx Cert.Cell

/-- Column `u` of the update gate's stretch of the [512, 1536] matrix; -/
abbrev colZ (u : Fin 512) : Fin 1536 := ⟨u.val, by omega⟩
/-- of the reset gate's; -/
abbrev colR (u : Fin 512) : Fin 1536 := ⟨512 + u.val, by omega⟩
/-- of the candidate's. -/
abbrev colC (u : Fin 512) : Fin 1536 := ⟨1024 + u.val, by omega⟩

/-- A column stretch of `x · w` for the [512, 1536] matrix, at (p, q): Σ_k x(p, k)·w(k, offset + q). -/
theorem wide3_apply (x : FVec Ideal S1024x512 .f32) (w : FVec Ideal S512x1536 .bf16) (off : ℕ)
    (hs : S1024x1536.Slices ![0, off] S1024x512) (p : Fin 1024) (q : Fin 512) (q' : Fin 1536) (hq : q'.val = off + q.val) :
    extractStridedSlice S1024x512 ![0, off]
        (matmul dot_S1024x512_S512x1536_S1024x1536_1_0_0_1_n_n none (truncf .bf16 x bitsLt_bf16_f32)
          (shapeCast S512x1536 w shapeCasts_S512x1536_S512x1536) (constant (F := Ideal) S1024x1536 .f32 0x00000000#32)) hs (ix2 p q)
      = ∑ k : Fin 512, x (ix2 p k) * w (ix2 k q') := by
  rw [shapeCast_self]
  exact (slice2_axis1_apply off _ hs p q q' hq).trans
    (matmul_plain_zero_apply dot_S1024x512_S512x1536_S1024x1536_1_0_0_1_n_n_wf none (truncf .bf16 x bitsLt_bf16_f32) w p q')

/-- A column stretch of `h · w` for the [512, 1024] matrix, at (p, q). -/
theorem wide2_apply (x : FVec Ideal S1024x512 .f32) (w : FVec Ideal S512x1024 .bf16) (off : ℕ)
    (hs : S1024x1024.Slices ![0, off] S1024x512) (p : Fin 1024) (q : Fin 512) (q' : Fin 1024) (hq : q'.val = off + q.val) :
    extractStridedSlice S1024x512 ![0, off]
        (matmul dot_S1024x512_S512x1024_S1024x1024_1_0_0_1_n_n none (truncf .bf16 x bitsLt_bf16_f32)
          (shapeCast S512x1024 w shapeCasts_S512x1024_S512x1024) (constant (F := Ideal) S1024x1024 .f32 0x00000000#32)) hs (ix2 p q)
      = ∑ k : Fin 512, x (ix2 p k) * w (ix2 k q') := by
  rw [shapeCast_self]
  exact (slice2_axis1_apply off _ hs p q q' hq).trans
    (matmul_plain_zero_apply dot_S1024x512_S512x1024_S1024x1024_1_0_0_1_n_n_wf none (truncf .bf16 x bitsLt_bf16_f32) w p q')

/-- `y · w` for the [512, 512] matrix, at (p, q). -/
theorem square_apply (y : FVec Ideal S1024x512 .f32) (w : FVec Ideal S512x512 .bf16) (p : Fin 1024) (q : Fin 512) :
    matmul dot_S1024x512_S512x512_S1024x512_1_0_0_1_n_n none (truncf .bf16 y bitsLt_bf16_f32)
        (shapeCast S512x512 w shapeCasts_S512x512_S512x512) (constant (F := Ideal) S1024x512 .f32 0x00000000#32) (ix2 p q)
      = ∑ k : Fin 512, y (ix2 p k) * w (ix2 k q) := by
  rw [shapeCast_self]
  exact matmul_plain_zero_apply dot_S1024x512_S512x512_S1024x512_1_0_0_1_n_n_wf none (truncf .bf16 y bitsLt_bf16_f32) w p q

/-- A bias vector read as one row and repeated down the rows, at (p, q): the vector at q. -/
theorem bias_apply (b : FVec Ideal S512 .f32) (p : Fin 1024) (q : Fin 512) :
    broadcastTo S1024x512 (shapeCast S1x512 b shapeCasts_S512_S1x512) broadcasts_S1x512_S1024x512 (ix2 p q) = b (ix1 q) :=
  (broadcastTo_1b_ab_apply _ broadcasts_S1x512_S1024x512 p q).trans (shapeCast_a_1a_apply b shapeCasts_S512_S1x512 0 q)

/-- The update gate's argument, as the body spells it. -/
def updateArg (v0 v1 : FVec Ideal S1024x512 .f32) (v4 : FVec Ideal S512x1536 .bf16) (v7 : FVec Ideal S512x1024 .bf16)
    (v16 : FVec Ideal S512 .f32) : FVec Ideal S1024x512 .f32 :=
  addf (addf
      (extractStridedSlice S1024x512 ![0, 0] (matmul dot_S1024x512_S512x1536_S1024x1536_1_0_0_1_n_n none (truncf .bf16 v0 bitsLt_bf16_f32) (shapeCast S512x1536 v4 shapeCasts_S512x1536_S512x1536) (constant S1024x1536 .f32 0x00000000#32)) slices_S1024x1536_o0_0_S1024x512)
      (extractStridedSlice S1024x512 ![0, 0] (matmul dot_S1024x512_S512x1024_S1024x1024_1_0_0_1_n_n none (truncf .bf16 v1 bitsLt_bf16_f32) (shapeCast S512x1024 v7 shapeCasts_S512x1024_S512x1024) (constant S1024x1024 .f32 0x00000000#32)) slices_S1024x1024_o0_0_S1024x512))
    (broadcastTo S1024x512 (shapeCast S1x512 v16 shapeCasts_S512_S1x512) broadcasts_S1x512_S1024x512)

/-- The reset gate's. -/
def resetArg (v0 v1 : FVec Ideal S1024x512 .f32) (v4 : FVec Ideal S512x1536 .bf16) (v7 : FVec Ideal S512x1024 .bf16)
    (v22 : FVec Ideal S512 .f32) : FVec Ideal S1024x512 .f32 :=
  addf (addf
      (extractStridedSlice S1024x512 ![0, 512] (matmul dot_S1024x512_S512x1536_S1024x1536_1_0_0_1_n_n none (truncf .bf16 v0 bitsLt_bf16_f32) (shapeCast S512x1536 v4 shapeCasts_S512x1536_S512x1536) (constant S1024x1536 .f32 0x00000000#32)) slices_S1024x1536_o0_512_S1024x512)
      (extractStridedSlice S1024x512 ![0, 512] (matmul dot_S1024x512_S512x1024_S1024x1024_1_0_0_1_n_n none (truncf .bf16 v1 bitsLt_bf16_f32) (shapeCast S512x1024 v7 shapeCasts_S512x1024_S512x1024) (constant S1024x1024 .f32 0x00000000#32)) slices_S1024x1024_o0_512_S1024x512))
    (broadcastTo S1024x512 (shapeCast S1x512 v22 shapeCasts_S512_S1x512) broadcasts_S1x512_S1024x512)

/-- The candidate's. -/
def candidateArg (v0 v1 : FVec Ideal S1024x512 .f32) (v4 : FVec Ideal S512x1536 .bf16) (v7 : FVec Ideal S512x1024 .bf16)
    (v22 : FVec Ideal S512 .f32) (v29 : FVec Ideal S512x512 .bf16) (v33 : FVec Ideal S512 .f32) : FVec Ideal S1024x512 .f32 :=
  addf (addf
      (extractStridedSlice S1024x512 ![0, 1024] (matmul dot_S1024x512_S512x1536_S1024x1536_1_0_0_1_n_n none (truncf .bf16 v0 bitsLt_bf16_f32) (shapeCast S512x1536 v4 shapeCasts_S512x1536_S512x1536) (constant S1024x1536 .f32 0x00000000#32)) slices_S1024x1536_o0_1024_S1024x512)
      (matmul dot_S1024x512_S512x512_S1024x512_1_0_0_1_n_n none (truncf .bf16 (mulf (logistic (resetArg v0 v1 v4 v7 v22)) v1) bitsLt_bf16_f32) (shapeCast S512x512 v29 shapeCasts_S512x512_S512x512) (constant S1024x512 .f32 0x00000000#32)))
    (broadcastTo S1024x512 (shapeCast S1x512 v33 shapeCasts_S512_S1x512) broadcasts_S1x512_S1024x512)

/-- The body's value is the blend of the previous state and the candidate by the update gate. -/
theorem pay_eq (v0 v1 : FVec Ideal S1024x512 .f32) (v4 : FVec Ideal S512x1536 .bf16) (v7 : FVec Ideal S512x1024 .bf16)
    (v16 v22 : FVec Ideal S512 .f32) (v29 : FVec Ideal S512x512 .bf16) (v33 : FVec Ideal S512 .f32) :
    k0_pay1 (F := Ideal) v0 v1 v4 v7 v16 v22 v29 v33
      = addf v1 (mulf (logistic (updateArg v0 v1 v4 v7 v16)) (subf (tanh (candidateArg v0 v1 v4 v7 v22 v29 v33)) v1)) := rfl

theorem updateArg_apply (v0 v1 : FVec Ideal S1024x512 .f32) (v4 : FVec Ideal S512x1536 .bf16) (v7 : FVec Ideal S512x1024 .bf16)
    (v16 : FVec Ideal S512 .f32) (p : Fin 1024) (q : Fin 512) :
    updateArg v0 v1 v4 v7 v16 (ix2 p q)
      = gate (fun k => v0 (ix2 p k)) (fun k => v1 (ix2 p k)) (fun k u => v4 (ix2 k (colZ u))) (fun k u => v7 (ix2 k (lo u)))
          (fun u => v16 (ix1 u)) q :=
  congrArg₂ (· + ·)
    (congrArg₂ (· + ·) (wide3_apply v0 v4 0 slices_S1024x1536_o0_0_S1024x512 p q (colZ q) (Nat.zero_add _).symm)
      (wide2_apply v1 v7 0 slices_S1024x1024_o0_0_S1024x512 p q (lo q) (Nat.zero_add _).symm))
    (bias_apply v16 p q)

theorem resetArg_apply (v0 v1 : FVec Ideal S1024x512 .f32) (v4 : FVec Ideal S512x1536 .bf16) (v7 : FVec Ideal S512x1024 .bf16)
    (v22 : FVec Ideal S512 .f32) (p : Fin 1024) (q : Fin 512) :
    resetArg v0 v1 v4 v7 v22 (ix2 p q)
      = gate (fun k => v0 (ix2 p k)) (fun k => v1 (ix2 p k)) (fun k u => v4 (ix2 k (colR u))) (fun k u => v7 (ix2 k (hi u)))
          (fun u => v22 (ix1 u)) q :=
  congrArg₂ (· + ·)
    (congrArg₂ (· + ·) (wide3_apply v0 v4 512 slices_S1024x1536_o0_512_S1024x512 p q (colR q) rfl)
      (wide2_apply v1 v7 512 slices_S1024x1024_o0_512_S1024x512 p q (hi q) rfl))
    (bias_apply v22 p q)

theorem candidateArg_apply (v0 v1 : FVec Ideal S1024x512 .f32) (v4 : FVec Ideal S512x1536 .bf16) (v7 : FVec Ideal S512x1024 .bf16)
    (v22 : FVec Ideal S512 .f32) (v29 : FVec Ideal S512x512 .bf16) (v33 : FVec Ideal S512 .f32) (p : Fin 1024) (q : Fin 512) :
    candidateArg v0 v1 v4 v7 v22 v29 v33 (ix2 p q)
      = gate (fun k => v0 (ix2 p k))
          (fun k => Ideal.logistic (gate (fun k => v0 (ix2 p k)) (fun k => v1 (ix2 p k)) (fun k u => v4 (ix2 k (colR u)))
            (fun k u => v7 (ix2 k (hi u))) (fun u => v22 (ix1 u)) k) * v1 (ix2 p k))
          (fun k u => v4 (ix2 k (colC u))) (fun k u => v29 (ix2 k u)) (fun u => v33 (ix1 u)) q :=
  congrArg₂ (· + ·)
    (congrArg₂ (· + ·) (wide3_apply v0 v4 1024 slices_S1024x1536_o0_1024_S1024x512 p q (colC q) rfl)
      ((square_apply (mulf (logistic (resetArg v0 v1 v4 v7 v22)) v1) v29 p q).trans
        (Finset.sum_congr rfl fun k _ => congrArg (· * v29 (ix2 k q))
          (congrArg (· * v1 (ix2 p k)) (congrArg Ideal.logistic (resetArg_apply v0 v1 v4 v7 v22 p k))))))
    (bias_apply v33 p q)

/-- THE BODY'S VALUE AT (p, q): the cell on row p, at column q. -/
theorem pay_apply (v0 v1 : FVec Ideal S1024x512 .f32) (v4 : FVec Ideal S512x1536 .bf16) (v7 : FVec Ideal S512x1024 .bf16)
    (v16 v22 : FVec Ideal S512 .f32) (v29 : FVec Ideal S512x512 .bf16) (v33 : FVec Ideal S512 .f32) (p : Fin 1024) (q : Fin 512) :
    k0_pay1 (F := Ideal) v0 v1 v4 v7 v16 v22 v29 v33 (ix2 p q)
      = cellRow (fun k => v0 (ix2 p k)) (fun k => v1 (ix2 p k))
          (fun k u => v4 (ix2 k (colZ u))) (fun k u => v4 (ix2 k (colR u))) (fun k u => v4 (ix2 k (colC u)))
          (fun k u => v7 (ix2 k (lo u))) (fun k u => v7 (ix2 k (hi u))) (fun k u => v29 (ix2 k u))
          (fun u => v16 (ix1 u)) (fun u => v22 (ix1 u)) (fun u => v33 (ix1 u)) q := by
  rw [pay_eq]
  exact congrArg (v1 (ix2 p q) + ·)
    (congrArg₂ (· * ·) (congrArg Ideal.logistic (updateArg_apply v0 v1 v4 v7 v16 p q))
      (congrArg (· - v1 (ix2 p q)) (congrArg Ideal.tanh (candidateArg_apply v0 v1 v4 v7 v22 v29 v33 p q))))

end Cert.KernelIdeal.CellPayload

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.CellValue.lean ====
/-
  The idealized kernel's result array, after the run, is the cell of `CellSpec` of the eight arguments.

  Three things are put together. (1) What the launch finds in the three rearranged matrices: the [512, 1536] one holds
  the upper halves of the update, reset and candidate matrices side by side, the [512, 1024] one the lower halves of
  the update and reset matrices, the [512, 512] one the lower half of the candidate matrix (`wide3_eq`, `wide2_eq`,
  `square_eq`, and their reads at an entry). (2) What the body is handed at grid point t: rows 1024·t … 1024·t + 1023 of the
  input and of the previous state, and the matrices and biases whole (`rows0`, `rows1`, `whole2` … `whole7`). With the
  body's value at an entry (`CellPayload.pay_apply`) this makes the block point t writes back block t of the cell
  (`flushed_eq`). (3) The sixteen blocks tile the [16384, 512] result: row i lies in the block of point i / 1024 (`cover`).
  So the result array ends holding the cell everywhere (`final`), and `run` restates the run with that array named.
-/
import proofs.«141747_j50165218017581_2_alg».proof.Proof.KernelIdealRun
import proofs.«141747_j50165218017581_2_alg».proof.Proof.CellPayload
import proofs.«141747_j50165218017581_2_alg».proof.Proof.CellSpec
import proofs.«141747_j50165218017581_2_alg».proof.Proof.LibConcatRead
import proofs.«141747_j50165218017581_2_alg».proof.Proof.LibNaryThree
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.CellValue

open Cert.KernelIdeal Cert.KernelIdeal.Gen Cert.KernelIdeal.CellRun Cert.KernelIdeal.CellPayload
open Idealize.ShloMosaic Idealize.ShloMosaic.TcCoe Idealize.SL.Sem Idealize.ShloMosaic.ValueIdx Cert.Cell
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The rearranged matrices as the launch finds them -/

/-- The [512, 1536] matrix: the three upper halves side by side. -/
theorem wide3_eq (c : Dev nD) :
    @Eq (FVec Ideal S512x1536 .bf16) (V m c main_v7)
      (truncf .bf16 (concatenate S512x1536 1
          [⟨S512x512, extractStridedSlice S512x512 ![0, 0] ((m ((c : Thread nD τ).loc main_arg2)) : FVec Ideal S1024x512 .f32) slices_S1024x512_S512x512_0_0⟩,
           ⟨S512x512, extractStridedSlice S512x512 ![0, 0] ((m ((c : Thread nD τ).loc main_arg3)) : FVec Ideal S1024x512 .f32) slices_S1024x512_S512x512_0_0⟩,
           ⟨S512x512, extractStridedSlice S512x512 ![0, 0] ((m ((c : Thread nD τ).loc main_arg4)) : FVec Ideal S1024x512 .f32) slices_S1024x512_S512x512_0_0⟩]
          concatenates_S512x512_S512x512_S512x512_S512x1536_d1) bitsLt_bf16_f32) := by
  dsimp only [V]
  simp only [hostOps0, List.flatten_cons, List.flatten_nil, List.append_nil, List.cons_append, List.nil_append]
  simp only [StableHlo.after_cons, StableHlo.after_nil]
  repeat (first
    | rw [StableHlo.unary_result] | rw [StableHlo.binary_result] | rw [StableHlo.nary3_result]
    | (rw [StableHlo.unary_result_ne]; rotate_left; decide)
    | (rw [StableHlo.binary_result_ne]; rotate_left; decide)
    | (rw [StableHlo.nary_result_ne]; rotate_left; decide))
  rfl

/-- The [512, 1024] matrix: the update and reset lower halves side by side. -/
theorem wide2_eq (c : Dev nD) :
    @Eq (FVec Ideal S512x1024 .bf16) (V m c main_v9)
      (truncf .bf16 (concatenate S512x1024 1
          [⟨S512x512, extractStridedSlice S512x512 ![512, 0] ((m ((c : Thread nD τ).loc main_arg2)) : FVec Ideal S1024x512 .f32) slices_S1024x512_S512x512_512_0⟩,
           ⟨S512x512, extractStridedSlice S512x512 ![512, 0] ((m ((c : Thread nD τ).loc main_arg3)) : FVec Ideal S1024x512 .f32) slices_S1024x512_S512x512_512_0⟩]
          concatenates_S512x512_S512x512_S512x1024_d1) bitsLt_bf16_f32) := by
  dsimp only [V]
  simp only [hostOps0, List.flatten_cons, List.flatten_nil, List.append_nil, List.cons_append, List.nil_append]
  simp only [StableHlo.after_cons, StableHlo.after_nil]
  repeat (first
    | rw [StableHlo.unary_result] | rw [StableHlo.binary_result] | rw [StableHlo.nary3_result]
    | (rw [StableHlo.unary_result_ne]; rotate_left; decide)
    | (rw [StableHlo.binary_result_ne]; rotate_left; decide)
    | (rw [StableHlo.nary_result_ne]; rotate_left; decide))

/-- The [512, 512] matrix: the candidate's lower half. -/
theorem square_eq (c : Dev nD) :
    @Eq (FVec Ideal S512x512 .bf16) (V m c main_v10)
      (truncf .bf16 (extractStridedSlice S512x512 ![512, 0] ((m ((c : Thread nD τ).loc main_arg4)) : FVec Ideal S1024x512 .f32) slices_S1024x512_S512x512_512_0) bitsLt_bf16_f32) := by
  dsimp only [V]
  simp only [hostOps0, List.flatten_cons, List.flatten_nil, List.append_nil, List.cons_append, List.nil_append]
  simp only [StableHlo.after_cons, StableHlo.after_nil]
  repeat (first
    | rw [StableHlo.unary_result] | rw [StableHlo.binary_result] | rw [StableHlo.nary3_result]
    | (rw [StableHlo.unary_result_ne]; rotate_left; decide)
    | (rw [StableHlo.binary_result_ne]; rotate_left; decide)
    | (rw [StableHlo.nary_result_ne]; rotate_left; decide))

/-- An upper half at (k, u) is the matrix at (k, u); -/
theorem upper_apply (K : FVec Ideal S1024x512 .f32) (k u : Fin 512) :
    extractStridedSlice S512x512 ![0, 0] K slices_S1024x512_S512x512_0_0 (ix2 k u) = K (ix2 (lo k) u) :=
  slice2_axis0_apply 0 K slices_S1024x512_S512x512_0_0 k u (lo k) (Nat.zero_add _).symm

/-- a lower half at (k, u) is the matrix at (512 + k, u). -/
theorem lower_apply (K : FVec Ideal S1024x512 .f32) (k u : Fin 512) :
    extractStridedSlice S512x512 ![512, 0] K slices_S1024x512_S512x512_512_0 (ix2 k u) = K (ix2 (hi k) u) :=
  slice2_axis0_apply 512 K slices_S1024x512_S512x512_512_0 k u (hi k) rfl

theorem wide3_z (c : Dev nD) (k u : Fin 512) :
    (V m c main_v7 : FVec Ideal S512x1536 .bf16) (ix2 k (colZ u)) = ((m ((c : Thread nD τ).loc main_arg2)) : FVec Ideal S1024x512 .f32) (ix2 (lo k) u) := by
  rw [wide3_eq]
  exact (concat3_cols_first _ _ _ concatenates_S512x512_S512x512_S512x512_S512x1536_d1 k u (colZ u) rfl).trans (upper_apply _ k u)

theorem wide3_r (c : Dev nD) (k u : Fin 512) :
    (V m c main_v7 : FVec Ideal S512x1536 .bf16) (ix2 k (colR u)) = ((m ((c : Thread nD τ).loc main_arg3)) : FVec Ideal S1024x512 .f32) (ix2 (lo k) u) := by
  rw [wide3_eq]
  exact (concat3_cols_second _ _ _ concatenates_S512x512_S512x512_S512x512_S512x1536_d1 k u (colR u) rfl).trans (upper_apply _ k u)

theorem wide3_c (c : Dev nD) (k u : Fin 512) :
    (V m c main_v7 : FVec Ideal S512x1536 .bf16) (ix2 k (colC u)) = ((m ((c : Thread nD τ).loc main_arg4)) : FVec Ideal S1024x512 .f32) (ix2 (lo k) u) := by
  rw [wide3_eq]
  exact (concat3_cols_third _ _ _ concatenates_S512x512_S512x512_S512x512_S512x1536_d1 k u (colC u)
    (by show 1024 + u.val = 512 + 512 + u.val; omega)).trans (upper_apply _ k u)

theorem wide2_z (c : Dev nD) (k u : Fin 512) :
    (V m c main_v9 : FVec Ideal S512x1024 .bf16) (ix2 k (lo u)) = ((m ((c : Thread nD τ).loc main_arg2)) : FVec Ideal S1024x512 .f32) (ix2 (hi k) u) := by
  rw [wide2_eq]
  exact (concat_cols_left _ _ concatenates_S512x512_S512x512_S512x1024_d1 k u (lo u) rfl).trans (lower_apply _ k u)

theorem wide2_r (c : Dev nD) (k u : Fin 512) :
    (V m c main_v9 : FVec Ideal S512x1024 .bf16) (ix2 k (hi u)) = ((m ((c : Thread nD τ).loc main_arg3)) : FVec Ideal S1024x512 .f32) (ix2 (hi k) u) := by
  rw [wide2_eq]
  exact (concat_cols_right _ _ concatenates_S512x512_S512x512_S512x1024_d1 k u (hi u) rfl).trans (lower_apply _ k u)

theorem square_c (c : Dev nD) (k u : Fin 512) :
    (V m c main_v10 : FVec Ideal S512x512 .bf16) (ix2 k u) = ((m ((c : Thread nD τ).loc main_arg4)) : FVec Ideal S1024x512 .f32) (ix2 (hi k) u) := by
  rw [square_eq]
  exact lower_apply _ k u

/-! ## The blocks the body is handed -/

/-- The printed index maps over the grid: the row windows move one block per point, the others stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

/-- The input's block at point t, at (p, k): the input at (1024·t + p, k). -/
theorem rows0 (c : Dev nD) (t : Fin cfg0.N) (p : Fin 1024) (k : Fin 512) (b : Fin 16384) (hb : b.val = 1024 * t.val + p.val) :
    (iblk m c 0 t : FVec Ideal S1024x512 .f32) (ix2 p k) = ((m ((c : Thread nD τ).loc main_arg0)) : FVec Ideal S16384x512 .f32) (ix2 b k) := by
  obtain ⟨e0, e1, -⟩ := idx_facts t
  unfold iblk
  rw [View.read_apply]
  show V m c main_arg0 _ = _
  refine (congrFun (V_main_arg0 m c) _).trans (congrArg (m ((c : Thread nD τ).loc main_arg0)) (funext fun a => Fin.ext ?_))
  match a with
  | ⟨0, _⟩ => show win0_0.index t (0 : Fin 2) * 1024 + 1 * p.val = b.val; rw [e0, hb]; omega
  | ⟨1, _⟩ => show win0_0.index t (1 : Fin 2) * 512 + 1 * k.val = k.val; rw [e1]; omega

/-- The previous state's block at point t, at (p, k). -/
theorem rows1 (c : Dev nD) (t : Fin cfg0.N) (p : Fin 1024) (k : Fin 512) (b : Fin 16384) (hb : b.val = 1024 * t.val + p.val) :
    (iblk m c 1 t : FVec Ideal S1024x512 .f32) (ix2 p k) = ((m ((c : Thread nD τ).loc main_arg1)) : FVec Ideal S16384x512 .f32) (ix2 b k) := by
  obtain ⟨-, -, e0, e1, -⟩ := idx_facts t
  unfold iblk
  rw [View.read_apply]
  show V m c main_arg1 _ = _
  refine (congrFun (V_main_arg1 m c) _).trans (congrArg (m ((c : Thread nD τ).loc main_arg1)) (funext fun a => Fin.ext ?_))
  match a with
  | ⟨0, _⟩ => show win0_1.index t (0 : Fin 2) * 1024 + 1 * p.val = b.val; rw [e0, hb]; omega
  | ⟨1, _⟩ => show win0_1.index t (1 : Fin 2) * 512 + 1 * k.val = k.val; rw [e1]; omega

/-- The [512, 1536] matrix is handed whole; -/
theorem whole2 (c : Dev nD) (t : Fin cfg0.N) (k : Fin 512) (j : Fin 1536) :
    (iblk m c 2 t : FVec Ideal S512x1536 .bf16) (ix2 k j) = (V m c main_v7 : FVec Ideal S512x1536 .bf16) (ix2 k j) := by
  obtain ⟨-, -, -, -, e0, e1, -⟩ := idx_facts t
  unfold iblk
  rw [View.read_apply]
  show V m c main_v7 _ = _
  refine congrArg (V m c main_v7) (funext fun a => Fin.ext ?_)
  match a with
  | ⟨0, _⟩ => show win0_2.index t (0 : Fin 2) * 512 + 1 * k.val = k.val; rw [e0]; omega
  | ⟨1, _⟩ => show win0_2.index t (1 : Fin 2) * 1536 + 1 * j.val = j.val; rw [e1]; omega

/-- the [512, 1024] matrix; -/
theorem whole3 (c : Dev nD) (t : Fin cfg0.N) (k : Fin 512) (j : Fin 1024) :
    (iblk m c 3 t : FVec Ideal S512x1024 .bf16) (ix2 k j) = (V m c main_v9 : FVec Ideal S512x1024 .bf16) (ix2 k j) := by
  obtain ⟨-, -, -, -, -, -, e0, e1, -⟩ := idx_facts t
  unfold iblk
  rw [View.read_apply]
  show V m c main_v9 _ = _
  refine congrArg (V m c main_v9) (funext fun a => Fin.ext ?_)
  match a with
  | ⟨0, _⟩ => show win0_3.index t (0 : Fin 2) * 512 + 1 * k.val = k.val; rw [e0]; omega
  | ⟨1, _⟩ => show win0_3.index t (1 : Fin 2) * 1024 + 1 * j.val = j.val; rw [e1]; omega

/-- the [512, 512] matrix; -/
theorem whole4 (c : Dev nD) (t : Fin cfg0.N) (k : Fin 512) (j : Fin 512) :
    (iblk m c 4 t : FVec Ideal S512x512 .bf16) (ix2 k j) = (V m c main_v10 : FVec Ideal S512x512 .bf16) (ix2 k j) := by
  obtain ⟨-, -, -, -, -, -, -, -, e0, e1, -⟩ := idx_facts t
  unfold iblk
  rw [View.read_apply]
  show V m c main_v10 _ = _
  refine congrArg (V m c main_v10) (funext fun a => Fin.ext ?_)
  match a with
  | ⟨0, _⟩ => show win0_4.index t (0 : Fin 2) * 512 + 1 * k.val = k.val; rw [e0]; omega
  | ⟨1, _⟩ => show win0_4.index t (1 : Fin 2) * 512 + 1 * j.val = j.val; rw [e1]; omega

/-- and the three biases. -/
theorem whole5 (c : Dev nD) (t : Fin cfg0.N) (u : Fin 512) :
    (iblk m c 5 t : FVec Ideal S512 .f32) (ix1 u) = ((m ((c : Thread nD τ).loc main_arg5)) : FVec Ideal S512 .f32) (ix1 u) := by
  obtain ⟨-, -, -, -, -, -, -, -, -, -, e0, -⟩ := idx_facts t
  unfold iblk
  rw [View.read_apply]
  show V m c main_arg5 _ = _
  refine (congrFun (V_main_arg5 m c) _).trans (congrArg (m ((c : Thread nD τ).loc main_arg5)) (funext fun a => Fin.ext ?_))
  match a with
  | ⟨0, _⟩ => show win0_5.index t (0 : Fin 1) * 512 + 1 * u.val = u.val; rw [e0]; omega

theorem whole6 (c : Dev nD) (t : Fin cfg0.N) (u : Fin 512) :
    (iblk m c 6 t : FVec Ideal S512 .f32) (ix1 u) = ((m ((c : Thread nD τ).loc main_arg6)) : FVec Ideal S512 .f32) (ix1 u) := by
  obtain ⟨-, -, -, -, -, -, -, -, -, -, -, e0, -⟩ := idx_facts t
  unfold iblk
  rw [View.read_apply]
  show V m c main_arg6 _ = _
  refine (congrFun (V_main_arg6 m c) _).trans (congrArg (m ((c : Thread nD τ).loc main_arg6)) (funext fun a => Fin.ext ?_))
  match a with
  | ⟨0, _⟩ => show win0_6.index t (0 : Fin 1) * 512 + 1 * u.val = u.val; rw [e0]; omega

theorem whole7 (c : Dev nD) (t : Fin cfg0.N) (u : Fin 512) :
    (iblk m c 7 t : FVec Ideal S512 .f32) (ix1 u) = ((m ((c : Thread nD τ).loc main_arg7)) : FVec Ideal S512 .f32) (ix1 u) := by
  obtain ⟨-, -, -, -, -, -, -, -, -, -, -, -, e0, -⟩ := idx_facts t
  unfold iblk
  rw [View.read_apply]
  show V m c main_arg7 _ = _
  refine (congrFun (V_main_arg7 m c) _).trans (congrArg (m ((c : Thread nD τ).loc main_arg7)) (funext fun a => Fin.ext ?_))
  match a with
  | ⟨0, _⟩ => show win0_7.index t (0 : Fin 1) * 512 + 1 * u.val = u.val; rw [e0]; omega

/-! ## What a point writes back -/

/-- The cell of the eight arguments as the launch finds them. -/
abbrev cellOf (c : Dev nD) : FVec Ideal S16384x512 .f32 :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The body's value at (p, q) of point t's block is the cell at (1024·t + p, q). -/
theorem block_cell (c : Dev nD) (t : Fin cfg0.N) (p : Fin 1024) (q : Fin 512) (b : Fin 16384) (hb : b.val = 1024 * t.val + p.val) :
    k0_pay1 (F := Ideal) (iblk m c 0 t) (iblk m c 1 t) (iblk m c 2 t) (iblk m c 3 t) (iblk m c 5 t) (iblk m c 6 t) (iblk m c 4 t) (iblk m c 7 t) (ix2 p q)
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b q := by
  refine (pay_apply (iblk m c 0 t) (iblk m c 1 t) (iblk m c 2 t) (iblk m c 3 t) (iblk m c 5 t) (iblk m c 6 t) (iblk m c 4 t) (iblk m c 7 t) p q).trans ?_
  have r0 : ∀ k, (iblk m c 0 t : FVec Ideal S1024x512 .f32) (ix2 p k) = ((m ((c : Thread nD τ).loc main_arg0)) : FVec Ideal S16384x512 .f32) (ix2 b k) := fun k => rows0 m c t p k b hb
  have r1 : ∀ k, (iblk m c 1 t : FVec Ideal S1024x512 .f32) (ix2 p k) = ((m ((c : Thread nD τ).loc main_arg1)) : FVec Ideal S16384x512 .f32) (ix2 b k) := fun k => rows1 m c t p k b hb
  have w3z : ∀ k u, (iblk m c 2 t : FVec Ideal S512x1536 .bf16) (ix2 k (colZ u)) = ((m ((c : Thread nD τ).loc main_arg2)) : FVec Ideal S1024x512 .f32) (ix2 (lo k) u) := fun k u => (whole2 m c t k _).trans (wide3_z m c k u)
  have w3r : ∀ k u, (iblk m c 2 t : FVec Ideal S512x1536 .bf16) (ix2 k (colR u)) = ((m ((c : Thread nD τ).loc main_arg3)) : FVec Ideal S1024x512 .f32) (ix2 (lo k) u) := fun k u => (whole2 m c t k _).trans (wide3_r m c k u)
  have w3c : ∀ k u, (iblk m c 2 t : FVec Ideal S512x1536 .bf16) (ix2 k (colC u)) = ((m ((c : Thread nD τ).loc main_arg4)) : FVec Ideal S1024x512 .f32) (ix2 (lo k) u) := fun k u => (whole2 m c t k _).trans (wide3_c m c k u)
  have w2z : ∀ k u, (iblk m c 3 t : FVec Ideal S512x1024 .bf16) (ix2 k (lo u)) = ((m ((c : Thread nD τ).loc main_arg2)) : FVec Ideal S1024x512 .f32) (ix2 (hi k) u) := fun k u => (whole3 m c t k _).trans (wide2_z m c k u)
  have w2r : ∀ k u, (iblk m c 3 t : FVec Ideal S512x1024 .bf16) (ix2 k (hi u)) = ((m ((c : Thread nD τ).loc main_arg3)) : FVec Ideal S1024x512 .f32) (ix2 (hi k) u) := fun k u => (whole3 m c t k _).trans (wide2_r m c k u)
  have w1c : ∀ k u, (iblk m c 4 t : FVec Ideal S512x512 .bf16) (ix2 k u) = ((m ((c : Thread nD τ).loc main_arg4)) : FVec Ideal S1024x512 .f32) (ix2 (hi k) u) := fun k u => (whole4 m c t k u).trans (square_c m c k u)
  have b5 : ∀ u, (iblk m c 5 t : FVec Ideal S512 .f32) (ix1 u) = ((m ((c : Thread nD τ).loc main_arg5)) : FVec Ideal S512 .f32) (ix1 u) := whole5 m c t
  have b6 : ∀ u, (iblk m c 6 t : FVec Ideal S512 .f32) (ix1 u) = ((m ((c : Thread nD τ).loc main_arg6)) : FVec Ideal S512 .f32) (ix1 u) := whole6 m c t
  have b7 : ∀ u, (iblk m c 7 t : FVec Ideal S512 .f32) (ix1 u) = ((m ((c : Thread nD τ).loc main_arg7)) : FVec Ideal S512 .f32) (ix1 u) := whole7 m c t
  unfold cellAt
  simp only [r0, r1, w3z, w3r, w3c, w2z, w2r, w1c, b5, b6, b7]

/-- WHAT POINT t WRITES BACK is block t of the cell of the arguments. -/
theorem flushed_eq (c : Dev nD) (t : Fin cfg0.N) :
    (dats m 0 c).flushed 8 t = ((cfg0.win 8).blk t).view.read (Elt Ideal) (cellOf m c) := by
  show (cfg0.win 8).cut (grid0.coords t) ((dats m 0 c).after 8 t) = _
  rw [after_out]
  unfold outBlock
  rw [View.canon_unit_zero hz2]
  simp only [View.ld_unit_zero (S := S1024x512) hz2, View.ld_unit_zero (S := S512x1536) hz2, View.ld_unit_zero (S := S512x1024) hz2,
    View.ld_unit_zero (S := S512x512) hz2, View.ld_unit_zero (S := S512) hz1]
  obtain ⟨-, -, -, -, -, -, -, -, -, -, -, -, -, e0, e1⟩ := idx_facts t
  have hN : cfg0.N = 16 := N_0
  funext j
  obtain ⟨p, q, rfl⟩ : ∃ (p : Fin 1024) (q : Fin 512), j = ix2 p q := ⟨j 0, j 1, eq_ix2 j⟩
  have hlt : 1024 * t.val + p.val < 16384 := by have := t.isLt; omega
  have hemb : ((cfg0.win 8).blk t).view.emb (ix2 p q) = ix2 (⟨1024 * t.val + p.val, hlt⟩ : Fin 16384) q :=
    funext fun a => Fin.ext (by
      match a with
      | ⟨0, _⟩ => show win0_8.index t (0 : Fin 2) * 1024 + 1 * p.val = 1024 * t.val + p.val; rw [e0]; omega
      | ⟨1, _⟩ => show win0_8.index t (1 : Fin 2) * 512 + 1 * q.val = q.val; rw [e1]; omega)
  show k0_pay1 (F := Ideal) (iblk m c 0 t) (iblk m c 1 t) (iblk m c 2 t) (iblk m c 3 t) (iblk m c 5 t) (iblk m c 6 t) (iblk m c 4 t) (iblk m c 7 t) (ix2 p q)
    = cellOf m c (((cfg0.win 8).blk t).view.emb (ix2 p q))
  rw [hemb]
  exact block_cell m c t p q ⟨1024 * t.val + p.val, hlt⟩ rfl

/-! ## The blocks tile the result -/

theorem mem_blk (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v11).slice (win0_8.rect t)).set ↔ _
  rw [View.set_slice_whole, Rect.mem_set_unit]
  exact Iff.rfl

/-- Row i of the result lies in the block of point i / 1024. -/
theorem cover (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 16 := N_0
  obtain ⟨-, -, -, -, -, -, -, -, -, -, -, -, -, e0, e1⟩ := idx_facts ⟨(i 0).val / 1024, by rw [hN]; omega⟩
  refine ⟨⟨(i 0).val / 1024, by rw [hN]; omega⟩, flush0_8 _, ?_⟩
  rw [mem_blk]
  intro a
  match a with
  | ⟨0, _⟩ =>
    show win0_8.index ⟨(i 0).val / 1024, _⟩ (0 : Fin 2) * 1024 ≤ (i 0).val ∧ (i 0).val < win0_8.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_8.index ⟨(i 0).val / 1024, _⟩ (1 : Fin 2) * 512 ≤ (i 1).val ∧ (i 1).val < win0_8.index ⟨(i 0).val / 1024, _⟩ (1 : Fin 2) * 512 + 512
    rw [e1]; omega

/-- THE RESULT ARRAY after the run: the cell of the arguments. -/
theorem final (c : Dev nD) : (dats m 0 c).arrAt 8 cfg0.N = cellOf m c :=
  (dats m 0 c).arrAt_eq_of_cover 8 (cellOf m c) (fun t _ => flushed_eq m c t) cover

/-! ## The run, read -/

/-- Every execution ends with the result array at the cell of the arguments and the arguments unchanged. -/
theorem run : θ_run defs (onTc (τ := τ) (main (F := Ideal))) ⟨m, fun _ => 0, ρ⟩ fun r => ∀ c : Dev nD,
      r.2.mem ((c.tc : Thread nD τ).loc main_v11) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.CellValue

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RefCell.lean ====
/-
  The reference's result, entry by entry, is the cell of `CellSpec`, where the previous state is finite.

  The reference joins each input row with its previous-state row (1024 entries), multiplies the joined rows by each
  whole [1024, 512] gate matrix, adds the bias, and takes σ as 1 / (1 + e^(−a)); for the candidate it joins the input row
  with `r ⊙ h`; it blends as (1 − z) ⊙ h + z ⊙ c. Read at (b, u): a joined array at (b, k) is `Cell.join` of the two rows
  (`joined_read`); the host's product at (b, u) is Σ_k L(b, k)·K(k, u) at the exact extended reals; a bias broadcast to
  [1, 512] and then down the rows reads the vector at u (`bias_read`); the array of ones reads 1. So each gate argument is
  `Cell.gateJoined` (`gate_read`) and the result at (b, u) is `Cell.cellRowJoined` on row b, which `Cell.cellRowJoined_eq`
  turns into `Cell.cellRow` when h(b, u) is a real number (`ref_is_cell`).
-/
import proofs.«141747_j50165218017581_2_alg».proof.Proof.RefRun
import proofs.«141747_j50165218017581_2_alg».proof.Proof.CellSpec
import proofs.«141747_j50165218017581_2_alg».proof.Proof.LibConcatRead
import proofs.«141747_j50165218017581_2_alg».proof.Proof.LibPlainDotGeneral
import Idealize.ShloMosaic.Lib.ValueIdx
import Idealize.ShloMosaic.Lib.Pipeline.Value

noncomputable section

open scoped BigOperators

namespace Cert.ReferenceIdeal.CellRead

open Cert.ReferenceIdeal Cert.ReferenceIdeal.Gen Idealize.ShloMosaic Idealize.ShloMosaic.ValueIdx Cert.Cell

/-- The array of ones the reference divides and subtracts from. -/
def ones : FVec Ideal S16384x512 .f32 :=
  broadcastInDim S16384x512 ![] bcast_S_S16384x512 (constant (F := Ideal) S_ .f32 0x3F800000#32)

theorem ones_apply (i : S16384x512.Idx) : ones i = 1 := by
  unfold ones
  rw [broadcastInDim_apply _ bcast_S_S16384x512 _ i (fun a => a.elim0) (fun a => a.elim0)]
  exact ofBits_one

/-- A gate's argument as the reference spells it: joined rows times the whole matrix, plus the bias. -/
def gateArr (X Y : FVec Ideal S16384x512 .f32) (K : FVec Ideal S1024x512 .f32) (bias : FVec Ideal S512 .f32) :
    FVec Ideal S16384x512 .f32 :=
  addf (Host.dotGeneral dot_S16384x1024_S1024x512_S16384x512_1_0_0_1_n_n none
      (concatenate S16384x1024 1 [⟨S16384x512, X⟩, ⟨S16384x512, Y⟩] concatenates_S16384x512_S16384x512_S16384x1024_d1) K)
    (broadcastInDim S16384x512 ![0, 1] bcast_S1x512_S16384x512_0_1 (broadcastInDim S1x512 ![1] bcast_S512_S1x512_1 bias))

/-- σ as the reference spells it: 1 / (1 + e^(−a)). -/
def sigmArr (g : FVec Ideal S16384x512 .f32) : FVec Ideal S16384x512 .f32 :=
  Host.divf ones (addf ones (Host.exp (Host.negf g)))

/-- The reference's result term is the blend of these pieces. -/
theorem ref_term_eq (x0 x1 : FVec Ideal S16384x512 .f32) (x2 x3 x4 : FVec Ideal S1024x512 .f32) (x5 x6 x7 : FVec Ideal S512 .f32) :
    addf (mulf (subf (broadcastInDim S16384x512 ![] bcast_S_S16384x512 (constant S_ .f32 0x3F800000#32)) (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x2)) (broadcastInDim S16384x512 ![0, 1] bcast_S1x512_S16384x512_0_1 (broadcastInDim S1x512 ![1] bcast_S512_S1x512_1 (x5))))))))) (x1)) (mulf (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x2)) (broadcastInDim S16384x512 ![0, 1] bcast_S1x512_S16384x512_0_1 (broadcastInDim S1x512 ![1] bcast_S512_S1x512_1 (x5)))))))) (Host.tanh (addf (Host.dotGeneral dot_S16384x1024_S1024x512_S16384x512_1_0_0_1_n_n none (concatenate S16384x1024 1 [⟨S16384x512, (x0)⟩, ⟨S16384x512, (mulf (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x3)) (broadcastInDim S16384x512 ![0, 1] bcast_S1x512_S16384x512_0_1 (broadcastInDim S1x512 ![1] bcast_S512_S1x512_1 (x6)))))))) (x1))⟩] concatenates_S16384x512_S16384x512_S16384x1024_d1) (x4)) (broadcastInDim S16384x512 ![0, 1] bcast_S1x512_S16384x512_0_1 (broadcastInDim S1x512 ![1] bcast_S512_S1x512_1 (x7))))))
      = addf (mulf (subf ones (sigmArr (gateArr x0 x1 x2 x5))) x1)
          (mulf (sigmArr (gateArr x0 x1 x2 x5))
            (Host.tanh (gateArr x0 (mulf (sigmArr (gateArr x0 x1 x3 x6)) x1) x4 x7))) := rfl

/-- Two arrays joined along the columns, at (b, k): the two rows laid end to end, at k. -/
theorem joined_read (X Y : FVec Ideal S16384x512 .f32) (b : Fin 16384) (k : Fin 1024) :
    concatenate S16384x1024 1 [⟨S16384x512, X⟩, ⟨S16384x512, Y⟩] concatenates_S16384x512_S16384x512_S16384x1024_d1 (ix2 b k)
      = join (fun k => X (ix2 b k)) (fun k => Y (ix2 b k)) k := by
  unfold join
  by_cases hk : k.val < 512
  · rw [dif_pos hk]
    exact concat_cols_left X Y concatenates_S16384x512_S16384x512_S16384x1024_d1 b ⟨k.val, hk⟩ k rfl
  · rw [dif_neg hk]
    exact concat_cols_right X Y concatenates_S16384x512_S16384x512_S16384x1024_d1 b ⟨k.val - 512, by omega⟩ k
      (by show k.val = 512 + (k.val - 512); omega)

/-- A bias read as one row and repeated down the rows, at (b, u): the vector at u. -/
theorem bias_read (bias : FVec Ideal S512 .f32) (b : Fin 16384) (u : Fin 512) :
    broadcastInDim S16384x512 ![0, 1] bcast_S1x512_S16384x512_0_1 (broadcastInDim S1x512 ![1] bcast_S512_S1x512_1 bias) (ix2 b u)
      = bias (ix1 u) :=
  (broadcastInDim_apply _ bcast_S1x512_S16384x512_0_1 _ (ix2 b u) (ix2 (0 : Fin 1) u) (fun a => match a with
    | ⟨0, _⟩ => by show 0 = if (1 : Nat) = 1 then 0 else b.val; rw [if_pos rfl]
    | ⟨1, _⟩ => by show u.val = if (512 : Nat) = 1 then 0 else u.val; rw [if_neg (by decide)])).trans
  (broadcastInDim_apply _ bcast_S512_S1x512_1 bias (ix2 (0 : Fin 1) u) (ix1 u) (fun a => match a with
    | ⟨0, _⟩ => by show u.val = if (512 : Nat) = 1 then 0 else u.val; rw [if_neg (by decide)]))

/-- A gate's argument at (b, u). -/
theorem gate_read (X Y : FVec Ideal S16384x512 .f32) (K : FVec Ideal S1024x512 .f32) (bias : FVec Ideal S512 .f32)
    (b : Fin 16384) (u : Fin 512) :
    gateArr X Y K bias (ix2 b u)
      = gateJoined (fun k => X (ix2 b k)) (fun k => Y (ix2 b k)) (fun k u => K (ix2 k u)) (fun u => bias (ix1 u)) u :=
  congrArg₂ (· + ·)
    ((dotGeneral_plain_apply dot_S16384x1024_S1024x512_S16384x512_1_0_0_1_n_n_wf none _ K b u).trans
      (Finset.sum_congr rfl fun k _ => congrArg (· * K (ix2 k u)) (joined_read X Y b k)))
    (bias_read bias b u)

/-- σ at an entry. -/
theorem sigm_apply (g : FVec Ideal S16384x512 .f32) (i : S16384x512.Idx) :
    sigmArr g i = Ideal.div 1 (1 + Ideal.exp (-(g i))) := by
  show Ideal.div (ones i) (ones i + Ideal.exp (-(g i))) = _
  rw [ones_apply]

/-- THE REFERENCE'S RESULT AT (b, u), where the previous state there is a real number: the cell. -/
theorem ref_at (x0 x1 : FVec Ideal S16384x512 .f32) (x2 x3 x4 : FVec Ideal S1024x512 .f32) (x5 x6 x7 : FVec Ideal S512 .f32)
    (b : Fin 16384) (u : Fin 512) (hfin : ∃ r : ℝ, x1 (ix2 b u) = (r : EReal)) :
    addf (mulf (subf ones (sigmArr (gateArr x0 x1 x2 x5))) x1)
        (mulf (sigmArr (gateArr x0 x1 x2 x5))
          (Host.tanh (gateArr x0 (mulf (sigmArr (gateArr x0 x1 x3 x6)) x1) x4 x7))) (ix2 b u)
      = cellAt x0 x1 x2 x3 x4 x5 x6 x7 b u := by
  refine Eq.trans ?_ (cellRowJoined_eq (fun k => x0 (ix2 b k)) (fun k => x1 (ix2 b k)) (fun k u => x2 (ix2 k u))
    (fun k u => x3 (ix2 k u)) (fun k u => x4 (ix2 k u)) (fun u => x5 (ix1 u)) (fun u => x6 (ix1 u)) (fun u => x7 (ix1 u)) u hfin)
  have hz : sigmArr (gateArr x0 x1 x2 x5) (ix2 b u)
      = Ideal.div 1 (1 + Ideal.exp (-(gateJoined (fun k => x0 (ix2 b k)) (fun k => x1 (ix2 b k)) (fun k u => x2 (ix2 k u))
          (fun u => x5 (ix1 u)) u))) := by
    rw [sigm_apply, gate_read]
  have hr : (fun k => mulf (sigmArr (gateArr x0 x1 x3 x6)) x1 (ix2 b k))
      = (fun k => Ideal.div 1 (1 + Ideal.exp (-(gateJoined (fun k => x0 (ix2 b k)) (fun k => x1 (ix2 b k))
          (fun k u => x3 (ix2 k u)) (fun u => x6 (ix1 u)) k))) * x1 (ix2 b k)) := funext fun k => by
    show sigmArr (gateArr x0 x1 x3 x6) (ix2 b k) * x1 (ix2 b k) = _
    rw [sigm_apply, gate_read]
  have hc : gateArr x0 (mulf (sigmArr (gateArr x0 x1 x3 x6)) x1) x4 x7 (ix2 b u)
      = gateJoined (fun k => x0 (ix2 b k))
          (fun k => Ideal.div 1 (1 + Ideal.exp (-(gateJoined (fun k => x0 (ix2 b k)) (fun k => x1 (ix2 b k))
            (fun k u => x3 (ix2 k u)) (fun u => x6 (ix1 u)) k))) * x1 (ix2 b k))
          (fun k u => x4 (ix2 k u)) (fun u => x7 (ix1 u)) u := by
    rw [gate_read, hr]
  show (ones (ix2 b u) - sigmArr (gateArr x0 x1 x2 x5) (ix2 b u)) * x1 (ix2 b u)
      + sigmArr (gateArr x0 x1 x2 x5) (ix2 b u)
        * Ideal.tanh (gateArr x0 (mulf (sigmArr (gateArr x0 x1 x3 x6)) x1) x4 x7 (ix2 b u)) = _
  rw [ones_apply, hz, hc]
  rfl

/-- THE REFERENCE'S RESULT, where the previous state is finite everywhere: the cell over the whole arrays. -/
theorem ref_is_cell (x0 x1 : FVec Ideal S16384x512 .f32) (x2 x3 x4 : FVec Ideal S1024x512 .f32) (x5 x6 x7 : FVec Ideal S512 .f32)
    (hfin : ∀ i : S16384x512.Idx, ∃ r : ℝ, x1 i = (r : EReal)) :
    addf (mulf (subf (broadcastInDim S16384x512 ![] bcast_S_S16384x512 (constant S_ .f32 0x3F800000#32)) (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x2)) (broadcastInDim S16384x512 ![0, 1] bcast_S1x512_S16384x512_0_1 (broadcastInDim S1x512 ![1] bcast_S512_S1x512_1 (x5))))))))) (x1)) (mulf (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x2)) (broadcastInDim S16384x512 ![0, 1] bcast_S1x512_S16384x512_0_1 (broadcastInDim S1x512 ![1] bcast_S512_S1x512_1 (x5)))))))) (Host.tanh (addf (Host.dotGeneral dot_S16384x1024_S1024x512_S16384x512_1_0_0_1_n_n none (concatenate S16384x1024 1 [⟨S16384x512, (x0)⟩, ⟨S16384x512, (mulf (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x1024_S1024x512_S16384x512_1_0_0_1_n_n none (concatenate S16384x1024 1 [⟨S16384x512, (x0)⟩, ⟨S16384x512, (x1)⟩] concatenates_S16384x512_S16384x512_S16384x1024_d1) (x3)) (broadcastInDim S16384x512 ![0, 1] bcast_S1x512_S16384x512_0_1 (broadcastInDim S1x512 ![1] bcast_S512_S1x512_1 (x6)))))))) (x1))⟩] concatenates_S16384x512_S16384x512_S16384x1024_d1) (x4)) (broadcastInDim S16384x512 ![0, 1] bcast_S1x512_S16384x512_0_1 (broadcastInDim S1x512 ![1] bcast_S512_S1x512_1 (x7))))))
      = cellArr x0 x1 x2 x3 x4 x5 x6 x7 := by
  rw [ref_term_eq]
  funext i
  obtain ⟨b, u, rfl⟩ : ∃ (b : Fin 16384) (u : Fin 512), i = ix2 b u := ⟨i 0, i 1, eq_ix2 i⟩
  rw [cellArr_ix2]
  exact ref_at x0 x1 x2 x3 x4 x5 x6 x7 b u (hfin _)

end Cert.ReferenceIdeal.CellRead

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteState.lean ====
/-
  What the precondition gives the proof: every entry of the previous state is a real number.

  The precondition is one bit: the conjunction, over the eight arguments, of "every entry x has |x| < +∞". A
  conjunction of bits is 1 only if each is; an all-reduce by "and" is 1 only if every entry's bit is; and on the
  extended reals max(x, −x) < +∞ fails at both infinities, so x is a real number. Only the second argument's
  conjunct (the previous state) is opened: it is the one factor the cell's two blends need finite.
-/
import proofs.«141747_j50165218017581_2_alg».proof.Pre_finite_inputs
import proofs.«141747_j50165218017581_2_alg».proof.Proof.LibFiniteEntry
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

variable [Facts]

/-- Under the precondition every entry of the second argument is a real number. -/
theorem second_real (a0 a1 : FVec Ideal S16384x512 .f32) (a2 a3 a4 : FVec Ideal S1024x512 .f32) (a5 a6 a7 : FVec Ideal S512 .f32)
    (h : fn (F := Ideal) a0 a1 a2 a3 a4 a5 a6 a7 = fun _ => 1#1) (i : S16384x512.Idx) :
    ∃ r : ℝ, a1 i = (r : EReal) := by
  have h0 : fn (F := Ideal) a0 a1 a2 a3 a4 a5 a6 a7 ValueIdx.ix0 = 1#1 := congrFun h ValueIdx.ix0
  dsimp only [fn, fn_part1, fn_part2] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨-, h7⟩ := IntOp.andi_eq_one.1 h6
  exact Ideal.real_of_abs_lt_inf (a1 i) (Host.reduce_andi_all _ _ _ _ _ h7 i)

end Cert.Pre_finite_inputs.Finite

end
-- ==== Proof.lean ====
/-
  One step of a gated recurrent cell: a tiled kernel against the textbook formula, equal over the extended reals.

  The kernel splits each [1024, 512] gate matrix into the half that multiplies the input x and the half that multiplies
  the previous state h, lays the halves side by side so that three wide products replace six, walks the 16384 rows in
  sixteen blocks of 1024, and blends  h + z ⊙ (c − h).  The reference joins x and h, multiplies by the whole matrices,
  spells σ(a) as 1 / (1 + e^(−a)), and blends  (1 − z) ⊙ h + z ⊙ c.
  Both are the one function `Cell.cellArr` of the eight arguments: a sum over 1024 terms is the sum over its two halves
  (no finiteness needed), a change of float format is the identity at the exact values, σ and tanh land in the real
  numbers whatever their argument, and the two blends agree once h is finite, which the precondition says
  (Proof/CellSpec.lean has the algebra; Proof/CellValue.lean the kernel's array; Proof/RefCell.lean the reference's).
  The three programs run to the end without touching their arguments (Proof/KernelRun.lean, Proof/KernelIdealRun.lean
  for the kernel at the machine's words and at the exact values; the reference's run for the reference), and the
  idealized kernel is the kernel's own text read at the exact values: nothing was rewritten, so that claim is `True`.
-/
import proofs.«141747_j50165218017581_2_alg».proof.Defs
import proofs.«141747_j50165218017581_2_alg».proof.Proof.Gen.Kernel
import proofs.«141747_j50165218017581_2_alg».proof.Proof.Gen.KernelIdeal
import proofs.«141747_j50165218017581_2_alg».proof.Proof.Gen.ReferenceIdeal
import proofs.«141747_j50165218017581_2_alg».proof.Proof.Gen.Pre_finite_inputs
import proofs.«141747_j50165218017581_2_alg».proof.Proof.KernelRun
import proofs.«141747_j50165218017581_2_alg».proof.Proof.CellValue
import proofs.«141747_j50165218017581_2_alg».proof.Proof.RefCell
import proofs.«141747_j50165218017581_2_alg».proof.Proof.FiniteState
import Idealize.ShloMosaic.Adequacy
import Idealize.ShloMosaic.Init

noncomputable section

namespace Cert.Proof

open Idealize.ShloMosaic Idealize.SL.Sem

/-- The kernel, at the machine's words, runs to the end and leaves its arguments as they were. -/
theorem frame_k : Cert.frame_Kernel := fun m ρ _ => Cert.Kernel.CellRun.frame m ρ

/-- So does the kernel read at the exact values. -/
theorem frame_ki : Cert.frame_KernelIdeal := fun m ρ _ => Cert.KernelIdeal.CellRun.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The exact-value reading rewrote nothing of the kernel. -/
theorem preserves : Cert.preserves_Kernel_KernelIdeal := trivial

/-- At the exact values, from memories that agree on the arguments, the kernel's result array and the reference's
    both end at the cell of the arguments: the kernel's block by block, the reference's entry by entry, where the
    previous state is finite, as the precondition says it is everywhere. -/
theorem algebraic : Cert.algebraic_KernelIdeal_ReferenceIdeal := by
  intro m ρ m' ρ' hpre hagree
  refine ⟨fun c => Cert.KernelIdeal.CellValue.cellOf m c, Cert.KernelIdeal.CellValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [a0, a1, a2, a3, a4, a5, a6, a7]
  exact Cert.ReferenceIdeal.CellRead.ref_is_cell _ _ _ _ _ _ _ _
    (fun i => Cert.Pre_finite_inputs.Finite.second_real _ _ _ _ _ _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
